-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000x3 : Shape := ⟨2, ![8000000, 3]⟩
abbrev S_ : Shape := ⟨0, ![]⟩

class Facts : Prop where
  bcast_S_S8000000x3 : S_.BroadcastsInDim S8000000x3 (![] : Fin 0 → Fin S8000000x3.rank)
  reducesTo_S8000000x3_S_d0_1 : S8000000x3.ReducesTo [0, 1] S_
  h_S_ : 0 < S_.numel

variable [Facts]

def fn {F : FTy → Type} [FloatOps F] (main_arg0 : FVec F S8000000x3 .f32) : IVec S_ 1 :=
  let main_v0 : FVec F S8000000x3 .f32 := Host.absf main_arg0
  let main_cst : FVec F S_ .f32 := constant S_ .f32 0x7F800000#32
  let main_v1 : FVec F S8000000x3 .f32 := broadcastInDim S8000000x3 ![] bcast_S_S8000000x3 main_cst
  let main_v2 : IVec S8000000x3 1 := cmpf .olt main_v0 main_v1
  let main_c : IVec S_ 1 := constantI S_ 1 1#1
  let main_v3 : IVec S_ 1 := (fun x v => Host.reduce IntOp.andi x v reducesTo_S8000000x3_S_d0_1 h_S_) main_v2 main_c
  main_v3
-- ==== Kernel.lean ====
abbrev S8000000x3 : Shape := ⟨2, ![8000000, 3]⟩
abbrev S8000000x10 : Shape := ⟨2, ![8000000, 10]⟩
abbrev S16000x3 : Shape := ⟨2, ![16000, 3]⟩
abbrev S16000x10 : Shape := ⟨2, ![16000, 10]⟩
abbrev S16000x1 : Shape := ⟨2, ![16000, 1]⟩

abbrev nBuf : Space → Nat
  | .hbm => 2
  | .vmem => 4
  | .smem => 0
  | _ => 0

abbrev bufTy : (tb : Table) → Fin (tcTables nBuf tb) → BufTy
  | .hbm, ⟨0, _⟩ => ⟨S8000000x3, .f32⟩
  | .hbm, ⟨1, _⟩ => ⟨S8000000x10, .f32⟩
  | .local _ .vmem, ⟨0, _⟩ => ⟨S16000x3, .f32⟩
  | .local _ .vmem, ⟨1, _⟩ => ⟨S16000x3, .f32⟩
  | .local _ .vmem, ⟨2, _⟩ => ⟨S16000x10, .f32⟩
  | .local _ .vmem, ⟨3, _⟩ => ⟨S16000x10, .f32⟩
  | _, _ => ⟨S8000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16000x3_S16000x1_0_0 : ∀ a, (![0, 0] : Fin 2 → Nat) a + S16000x1.size a ≤ S16000x3.size a
  h_S16000x1 : 0 < S16000x1.numel
  inb_S16000x3_S16000x1_0_1 : ∀ a, (![0, 1] : Fin 2 → Nat) a + S16000x1.size a ≤ S16000x3.size a
  inb_S16000x3_S16000x1_0_2 : ∀ a, (![0, 2] : Fin 2 → Nat) a + S16000x1.size a ≤ S16000x3.size a
  inb_S16000x10_S16000x1_0_0 : ∀ a, (![0, 0] : Fin 2 → Nat) a + S16000x1.size a ≤ S16000x10.size a
  inb_S16000x10_S16000x1_0_1 : ∀ a, (![0, 1] : Fin 2 → Nat) a + S16000x1.size a ≤ S16000x10.size a
  inb_S16000x10_S16000x1_0_2 : ∀ a, (![0, 2] : Fin 2 → Nat) a + S16000x1.size a ≤ S16000x10.size a
  inb_S16000x10_S16000x1_0_3 : ∀ a, (![0, 3] : Fin 2 → Nat) a + S16000x1.size a ≤ S16000x10.size a
  inb_S16000x10_S16000x1_0_4 : ∀ a, (![0, 4] : Fin 2 → Nat) a + S16000x1.size a ≤ S16000x10.size a
  inb_S16000x10_S16000x1_0_5 : ∀ a, (![0, 5] : Fin 2 → Nat) a + S16000x1.size a ≤ S16000x10.size a
  inb_S16000x10_S16000x1_0_6 : ∀ a, (![0, 6] : Fin 2 → Nat) a + S16000x1.size a ≤ S16000x10.size a
  inb_S16000x10_S16000x1_0_7 : ∀ a, (![0, 7] : Fin 2 → Nat) a + S16000x1.size a ≤ S16000x10.size a
  inb_S16000x10_S16000x1_0_8 : ∀ a, (![0, 8] : Fin 2 → Nat) a + S16000x1.size a ≤ S16000x10.size a
  inb_S16000x10_S16000x1_0_9 : ∀ a, (![0, 9] : Fin 2 → Nat) a + S16000x1.size a ≤ S16000x10.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x3.size a ≤ S8000000x3.size a
  hwx0_0 : ∀ i : grid0.Coords, EltTy.bits .f32 = 32 ∨ (Rect.block (s := S8000000x3) S16000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x10.size a ≤ S8000000x10.size a
  hwx0_1 : ∀ i : grid0.Coords, EltTy.bits .f32 = 32 ∨ (Rect.block (s := S8000000x10) S16000x10.size (cc0_transform_1 i) (hinb0_1 i)).WholeWords (EltTy.packing .f32)

variable [Facts₀]

abbrev win0_0 : Pipeline.Window sig grid0 :=
  Pipeline.Window.ofSpec (Memref.whole main_arg0) S16000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16000x10.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8000000x3 : Shape := ⟨2, ![8000000, 3]⟩
abbrev S8000000x1 : Shape := ⟨2, ![8000000, 1]⟩
abbrev S8000000 : Shape := ⟨1, ![8000000]⟩
abbrev S_ : Shape := ⟨0, ![]⟩
abbrev S8000000x10 : Shape := ⟨2, ![8000000, 10]⟩

abbrev nBuf : Space → Nat
  | .hbm => 26
  | .vmem => 0
  | .smem => 0
  | _ => 0

abbrev bufTy : (tb : Table) → Fin (tcTables nBuf tb) → BufTy
  | .hbm, ⟨0, _⟩ => ⟨S8000000x3, .f32⟩
  | .hbm, ⟨1, _⟩ => ⟨S8000000x1, .f32⟩
  | .hbm, ⟨2, _⟩ => ⟨S8000000, .f32⟩
  | .hbm, ⟨3, _⟩ => ⟨S8000000x1, .f32⟩
  | .hbm, ⟨4, _⟩ => ⟨S8000000, .f32⟩
  | .hbm, ⟨5, _⟩ => ⟨S8000000x1, .f32⟩
  | .hbm, ⟨6, _⟩ => ⟨S8000000, .f32⟩
  | .hbm, ⟨7, _⟩ => ⟨S_, .f32⟩
  | .hbm, ⟨8, _⟩ => ⟨S8000000, .f32⟩
  | .hbm, ⟨9, _⟩ => ⟨S8000000, .f32⟩
  | .hbm, ⟨10, _⟩ => ⟨S8000000, .f32⟩
  | .hbm, ⟨11, _⟩ => ⟨S8000000, .f32⟩
  | .hbm, ⟨12, _⟩ => ⟨S8000000, .f32⟩
  | .hbm, ⟨13, _⟩ => ⟨S8000000, .f32⟩
  | .hbm, ⟨14, _⟩ => ⟨S8000000, .f32⟩
  | .hbm, ⟨15, _⟩ => ⟨S8000000x1, .f32⟩
  | .hbm, ⟨16, _⟩ => ⟨S8000000x1, .f32⟩
  | .hbm, ⟨17, _⟩ => ⟨S8000000x1, .f32⟩
  | .hbm, ⟨18, _⟩ => ⟨S8000000x1, .f32⟩
  | .hbm, ⟨19, _⟩ => ⟨S8000000x1, .f32⟩
  | .hbm, ⟨20, _⟩ => ⟨S8000000x1, .f32⟩
  | .hbm, ⟨21, _⟩ => ⟨S8000000x1, .f32⟩
  | .hbm, ⟨22, _⟩ => ⟨S8000000x1, .f32⟩
  | .hbm, ⟨23, _⟩ => ⟨S8000000x1, .f32⟩
  | .hbm, ⟨24, _⟩ => ⟨S8000000x1, .f32⟩
  | .hbm, ⟨25, _⟩ => ⟨S8000000x10, .f32⟩
  | _, _ => ⟨S8000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩

abbrev nD : Nat := 1
abbrev τ : Topo := Topo.v7x

variable {F : FTy → Type} [FloatOps F]

class Facts₀ : Prop where
  slices_S8000000x3_S8000000x1_0_0 : S8000000x3.Slices ![0, 0] S8000000x1
  shapeCasts_S8000000x1_S8000000 : S8000000x1.ShapeCasts S8000000
  slices_S8000000x3_S8000000x1_0_1 : S8000000x3.Slices ![0, 1] S8000000x1
  slices_S8000000x3_S8000000x1_0_2 : S8000000x3.Slices ![0, 2] S8000000x1
  bcast_S_S8000000 : S_.BroadcastsInDim S8000000 (![] : Fin 0 → Fin S8000000.rank)
  bcast_S8000000_S8000000x1_0 : S8000000.BroadcastsInDim S8000000x1 (![0] : Fin 1 → Fin S8000000x1.rank)
  concatenates_S8000000x1_S8000000x1_S8000000x1_S8000000x1_S8000000x1_S8000000x1_S8000000x1_S8000000x1_S8000000x1_S8000000x1_S8000000x10_d1 : Shape.Concatenates [S8000000x1, S8000000x1, S8000000x1, S8000000x1, S8000000x1, S8000000x1, S8000000x1, S8000000x1, S8000000x1, S8000000x1] S8000000x10 1

variable [Facts₀]

class Facts : Prop extends Facts₀ where

variable [Facts]
-- ==== Proof.Features.lean ====
/-
  The degree-two polynomial features of a matrix with three columns.

  Row `r` of the result lists the ten monomials of degree at most two in the row's three entries
  `a = X[r, 0]`, `b = X[r, 1]`, `c = X[r, 2]`, in the order

      1, a, b, c, a·a, a·b, a·c, b·b, b·c, c·c.

  The function is stated once for any number of rows `n` and any float instance: it uses only the
  instance's product and the constant whose word is that of `1.0`. Both programs of the certificate compute
  it with the factors of every product in this order, so no law of the arithmetic is needed to join them.
-/
import Idealize.ShloMosaic.Lib.ValueIdx

noncomputable section

namespace Cert.PolyFeatures

open Idealize.ShloMosaic Idealize.ShloMosaic.ValueIdx

variable {F : FTy → Type} [FloatOps F]

/-- The ten monomials of degree at most two in `a`, `b`, `c`, by position in the list
    1, a, b, c, a·a, a·b, a·c, b·b, b·c, c·c (a position past the ninth reads the last). -/
def monomial {α : Type} (one : α) (mul : α → α → α) (a b c : α) : Nat → α
  | 0 => one
  | 1 => a
  | 2 => b
  | 3 => c
  | 4 => mul a a
  | 5 => mul a b
  | 6 => mul a c
  | 7 => mul b b
  | 8 => mul b c
  | _ => mul c c

/-- Row `r` of an `n × 3` matrix, as the row number below `n`. -/
abbrev rowOf {n k : Nat} (j : (⟨2, ![n, k]⟩ : Shape).Idx) : Fin n := ⟨(j 0).val, idx2_lt0 j⟩

/-- The feature matrix of `X`: entry `(r, k)` is the `k`-th monomial of row `r` of `X`. -/
def features (n : Nat) (X : (⟨2, ![n, 3]⟩ : Shape).Idx → F .f32) : (⟨2, ![n, 10]⟩ : Shape).Idx → F .f32 :=
  fun j => monomial (FloatOps.ofBits .f32 0x3F800000#32) FloatOps.mulf
    (X (ix2 (rowOf j) (0 : Fin 3))) (X (ix2 (rowOf j) (1 : Fin 3))) (X (ix2 (rowOf j) (2 : Fin 3))) (j 1).val

/-- The feature matrix at an entry given by its row and column. -/
theorem features_ix2 (n : Nat) (X : (⟨2, ![n, 3]⟩ : Shape).Idx → F .f32) (r : Fin n) (k : Fin 10) :
    features n X (ix2 r k) = monomial (FloatOps.ofBits .f32 0x3F800000#32) FloatOps.mulf
      (X (ix2 r (0 : Fin 3))) (X (ix2 r (1 : Fin 3))) (X (ix2 r (2 : Fin 3))) k.val := rfl

/-- Two feature matrices agree at two entries in the same column whose rows hold the same three numbers. -/
theorem features_congr (n n' : Nat) (X : (⟨2, ![n, 3]⟩ : Shape).Idx → F .f32) (X' : (⟨2, ![n', 3]⟩ : Shape).Idx → F .f32)
    (j : (⟨2, ![n, 10]⟩ : Shape).Idx) (j' : (⟨2, ![n', 10]⟩ : Shape).Idx)
    (hcol : (j 1).val = (j' 1).val)
    (hrow : ∀ k : Fin 3, X (ix2 (rowOf j) k) = X' (ix2 (rowOf j') k)) :
    features n X j = features n' X' j' := by
  unfold features
  rw [hrow 0, hrow 1, hrow 2, hcol]

end Cert.PolyFeatures

end
-- ==== Proof.Block.lean ====
/-
  One block of the kernel.

  At a grid point the body sees a `16000 × 3` block of the input and fills a `16000 × 10` block of the
  output by ten stores, one per column: column 0 with the constant 1, columns 1 to 3 with the three input
  columns, columns 4 to 9 with the products of two input columns. Each store's rectangle is one whole column,
  so the element at row `r` of the stored column sits at `(r, k)` of the block, and each loaded column's
  element at row `r` comes from `(r, a)` of the input block (`column_emb`). Hence every store writes the
  entries of ONE function of the block index, the feature matrix of the input block, and since the ten
  columns cover the block, the block the body leaves IS that feature matrix (`block_eq_features`).
  Nothing here depends on the float instance.
-/
import proofs.«138233_j46866683134251_2_alg».proof.Proof.Gen.KernelIdeal.Frame
import proofs.«138233_j46866683134251_2_alg».proof.Proof.Features
import Idealize.ShloMosaic.Lib.Pipeline.Value

noncomputable section

namespace Cert.KernelIdeal.BlockValue

open Cert.KernelIdeal Cert.KernelIdeal.Gen Idealize.ShloMosaic Idealize.ShloMosaic.ValueIdx Cert.PolyFeatures

variable {F : FTy → Type} [FloatOps F]

/-- Column `k` of a `16000 × C` block, as a rectangle: its element at row `r` is the block's entry `(r, k)`. -/
theorem column_emb (C : Nat) (k : Fin C)
    (inb : ∀ a, (![0, k.val] : Fin 2 → Nat) a + (⟨2, ![16000, 1]⟩ : Shape).size a ≤ (⟨2, ![16000, C]⟩ : Shape).size a)
    (x : (⟨2, ![16000, 1]⟩ : Shape).Idx) :
    (Rect.unit (s := ⟨2, ![16000, C]⟩) ![0, k.val] (⟨2, ![16000, 1]⟩ : Shape).size inb).emb x = ix2 (rowOf x) k := by
  funext a; apply Fin.ext
  match a with
  | ⟨0, _⟩ => show 0 + 1 * (x 0).val = (x 0).val; omega
  | ⟨1, _⟩ => show k.val + 1 * (x 1).val = k.val; have h : (x 1).val < 1 := idx2_lt1 x; omega

/-- A store of the constant 1 into column 0 writes the feature matrix's column 0. -/
theorem one_piece (x0 : Vec F S16000x3 .f32) (x : S16000x1.Idx) :
    k0_pay1 (F := F) x = features 16000 x0 (r0_3.emb x) :=
  (congrArg (features 16000 x0) (column_emb 10 0 _ x)).symm

/-- A store of input column `a` into output column `a + 1` writes the feature matrix's column `a + 1`;
    the three cases. -/
theorem copy0_piece (x0 : Vec F S16000x3 .f32) (x : S16000x1.Idx) :
    View.ld x0 r0_0 x = features 16000 x0 (r0_4.emb x) :=
  (congrArg x0 (column_emb 3 0 _ x)).trans (congrArg (features 16000 x0) (column_emb 10 1 _ x)).symm
theorem copy1_piece (x0 : Vec F S16000x3 .f32) (x : S16000x1.Idx) :
    View.ld x0 r0_1 x = features 16000 x0 (r0_5.emb x) :=
  (congrArg x0 (column_emb 3 1 _ x)).trans (congrArg (features 16000 x0) (column_emb 10 2 _ x)).symm
theorem copy2_piece (x0 : Vec F S16000x3 .f32) (x : S16000x1.Idx) :
    View.ld x0 r0_2 x = features 16000 x0 (r0_6.emb x) :=
  (congrArg x0 (column_emb 3 2 _ x)).trans (congrArg (features 16000 x0) (column_emb 10 3 _ x)).symm

/-- A store of the product of input columns `a` and `b` writes the feature matrix's column of `a·b`:
    a·a in column 4, a·b in 5, a·c in 6, b·b in 7, b·c in 8, c·c in 9. -/
theorem prod00_piece (x0 : Vec F S16000x3 .f32) (x : S16000x1.Idx) :
    k0_pay2 (View.ld x0 r0_0) x = features 16000 x0 (r0_7.emb x) :=
  (congrArg₂ FloatOps.mulf (congrArg x0 (column_emb 3 0 _ x)) (congrArg x0 (column_emb 3 0 _ x))).trans
    (congrArg (features 16000 x0) (column_emb 10 4 _ x)).symm
theorem prod01_piece (x0 : Vec F S16000x3 .f32) (x : S16000x1.Idx) :
    k0_pay3 (View.ld x0 r0_0) (View.ld x0 r0_1) x = features 16000 x0 (r0_8.emb x) :=
  (congrArg₂ FloatOps.mulf (congrArg x0 (column_emb 3 0 _ x)) (congrArg x0 (column_emb 3 1 _ x))).trans
    (congrArg (features 16000 x0) (column_emb 10 5 _ x)).symm
theorem prod02_piece (x0 : Vec F S16000x3 .f32) (x : S16000x1.Idx) :
    k0_pay4 (View.ld x0 r0_0) (View.ld x0 r0_2) x = features 16000 x0 (r0_9.emb x) :=
  (congrArg₂ FloatOps.mulf (congrArg x0 (column_emb 3 0 _ x)) (congrArg x0 (column_emb 3 2 _ x))).trans
    (congrArg (features 16000 x0) (column_emb 10 6 _ x)).symm
theorem prod11_piece (x0 : Vec F S16000x3 .f32) (x : S16000x1.Idx) :
    k0_pay5 (View.ld x0 r0_1) x = features 16000 x0 (r0_10.emb x) :=
  (congrArg₂ FloatOps.mulf (congrArg x0 (column_emb 3 1 _ x)) (congrArg x0 (column_emb 3 1 _ x))).trans
    (congrArg (features 16000 x0) (column_emb 10 7 _ x)).symm
theorem prod12_piece (x0 : Vec F S16000x3 .f32) (x : S16000x1.Idx) :
    k0_pay6 (View.ld x0 r0_1) (View.ld x0 r0_2) x = features 16000 x0 (r0_11.emb x) :=
  (congrArg₂ FloatOps.mulf (congrArg x0 (column_emb 3 1 _ x)) (congrArg x0 (column_emb 3 2 _ x))).trans
    (congrArg (features 16000 x0) (column_emb 10 8 _ x)).symm
theorem prod22_piece (x0 : Vec F S16000x3 .f32) (x : S16000x1.Idx) :
    k0_pay7 (View.ld x0 r0_2) x = features 16000 x0 (r0_12.emb x) :=
  (congrArg₂ FloatOps.mulf (congrArg x0 (column_emb 3 2 _ x)) (congrArg x0 (column_emb 3 2 _ x))).trans
    (congrArg (features 16000 x0) (column_emb 10 9 _ x)).symm

/-- THE BLOCK: what the body leaves in the output block is the feature matrix of the input block. The ten
    stores each write a column of that one function, and together the columns cover the block. -/
theorem block_eq_features (x0 : Vec F S16000x3 .f32) : out0_1 x0 = features 16000 x0 := by
  funext y
  unfold out0_1
  refine View.canon_apply_of_pieces (features 16000 x0) _ ?_ y (cover0_1 _ _ _ _ _ _ _ _ _ _ y)
  intro p hp
  simp only [List.mem_cons, List.not_mem_nil, or_false] at hp
  rcases hp with rfl | rfl | rfl | rfl | rfl | rfl | rfl | rfl | rfl | rfl
  · exact prod22_piece x0
  · exact prod12_piece x0
  · exact prod11_piece x0
  · exact prod02_piece x0
  · exact prod01_piece x0
  · exact prod00_piece x0
  · exact copy2_piece x0
  · exact copy1_piece x0
  · exact copy0_piece x0
  · exact one_piece x0

end Cert.KernelIdeal.BlockValue

end
-- ==== Proof.Array.lean ====
/-
  The kernel's output array.

  The grid has 500 points. At point `t` the input window is rows `16000·t … 16000·t + 15999` of the
  `8000000 × 3` argument, all three columns, and the output window the same rows of the `8000000 × 10`
  result, all ten columns (`index_facts`: both index maps send `t` to block `(t, 0)`). The body turns the
  input block into its feature matrix (Block.lean), and a row of a feature matrix depends only on the same row of
  the input, so what point `t` writes back is block `t` of the feature matrix of the WHOLE argument
  (`flushed_eq`). Row `r` lies in block `r / 16000`, so the 500 blocks cover the result (`covered`), and
  the array the run leaves is the feature matrix of the argument (`final`, `run`). Nothing here depends
  on the float instance.
-/
import proofs.«138233_j46866683134251_2_alg».proof.Proof.Gen.KernelIdeal.Value
import proofs.«138233_j46866683134251_2_alg».proof.Proof.Block

noncomputable section

namespace Cert.KernelIdeal.ArrayValue

open Cert.KernelIdeal Cert.KernelIdeal.Gen Idealize.ShloMosaic Idealize.ShloMosaic.TcCoe Idealize.SL.Sem
open Idealize.ShloMosaic.ValueIdx Cert.PolyFeatures
open Idealize.ShloMosaic.Pipeline (Dat)

variable {F : FTy → Type} [FloatOps F]
variable (m : (ℓ : Loc nD τ sig) → Buf (Elt F) ℓ) (ρ : Dev nD → PrngReg)

/-- Both windows' blocks at point `t` are block `t` along the rows and the one block along the columns
    (decided over the 500 points). -/
theorem index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- WHAT POINT `t` WRITES BACK is block `t` of the feature matrix of the whole argument: entry `(r, k)` of
    the output block is the `k`-th monomial of row `r` of the input block, which is row `16000·t + r` of the
    argument, and the output block's entry `(r, k)` sits at `(16000·t + r, k)` of the result. -/
theorem flushed_eq (c : Dev nD) (t : Fin cfg0.N) :
    (dats m 0 c).flushed 1 t = ((cfg0.win 1).blk t).view.read (Elt F) (features 8000000 (V m c main_arg0)) := by
  rw [Value.flushed1, BlockValue.block_eq_features]
  funext j
  show features 16000 (iblk m c 0 t) j = features 8000000 (V m c main_arg0) (((cfg0.win 1).blk t).view.emb j)
  obtain ⟨e00, e01, e10, e11⟩ := index_facts t
  refine features_congr 16000 8000000 _ _ j _ ?_ ?_
  · show (j 1).val = win0_1.index t (1 : Fin 2) * 10 + 1 * (j 1).val
    rw [e11]; omega
  · intro k
    show V m c main_arg0 (((cfg0.win 0).blk t).view.emb (ix2 (rowOf j) k)) = _
    refine congrArg (V m c main_arg0) ?_
    funext a; apply Fin.ext
    match a with
    | ⟨0, _⟩ =>
      show win0_0.index t (0 : Fin 2) * 16000 + 1 * (j 0).val = win0_1.index t (0 : Fin 2) * 16000 + 1 * (j 0).val
      rw [e00, e10]
    | ⟨1, _⟩ =>
      show win0_0.index t (1 : Fin 2) * 3 + 1 * k.val = k.val
      rw [e01]; omega

/-- An entry of the result is in point `t`'s output block iff each coordinate is in the block's range. -/
theorem mem_blk (t : Fin cfg0.N) (i : S8000000x10.Idx) :
    i ∈ ((cfg0.win 1).blk t).view.set ↔ ∀ a : Fin 2, win0_1.index t a * S16000x10.size a ≤ (i a).val
      ∧ (i a).val < win0_1.index t a * S16000x10.size a + S16000x10.size a := by
  show i ∈ ((View.whole main_v0).slice (win0_1.rect t)).set ↔ _
  rw [View.set_slice_whole, Rect.mem_set_unit]
  exact Iff.rfl

/-- Every entry of the result is written back by some point: row `r` by point `r / 16000`. -/
theorem covered (i : S8000000x10.Idx) :
    ∃ t : Fin cfg0.N, (cfg0.win 1).flush t = true ∧ i ∈ ((cfg0.win 1).blk t).view.set := by
  have hN : cfg0.N = 500 := N_0
  have hi0 : (i 0).val < 8000000 := idx2_lt0 i
  have hi1 : (i 1).val < 10 := idx2_lt1 i
  obtain ⟨t, ht⟩ : ∃ t : Fin cfg0.N, t.val = (i 0).val / 16000 := ⟨⟨(i 0).val / 16000, by rw [hN]; omega⟩, rfl⟩
  obtain ⟨-, -, e10, e11⟩ := index_facts t
  refine ⟨t, flush0_1 t, ?_⟩
  rw [mem_blk]
  intro a
  match a with
  | ⟨0, _⟩ =>
    show win0_1.index t (0 : Fin 2) * 16000 ≤ (i 0).val ∧ (i 0).val < win0_1.index t (0 : Fin 2) * 16000 + 16000
    rw [e10, ht]; omega
  | ⟨1, _⟩ =>
    show win0_1.index t (1 : Fin 2) * 10 ≤ (i 1).val ∧ (i 1).val < win0_1.index t (1 : Fin 2) * 10 + 10
    rw [e11]; omega

/-- THE ARRAY after the run is the feature matrix of the argument. -/
theorem final (c : Dev nD) :
    (dats m 0 c).arrAt 1 cfg0.N = features 8000000 (m ((c : Thread nD τ).loc main_arg0)) :=
  (dats m 0 c).arrAt_eq_of_cover 1 _ (fun t _ => flushed_eq m c t) covered

/-- The kernel's run: every weakly fair execution ends with the result array at the feature matrix of the
    argument, and the argument as launched. -/
theorem run : θ_run defs (onTc (τ := τ) (main (F := F))) ⟨m, fun _ => 0, ρ⟩ fun r => ∀ c : Dev nD,
      r.2.mem ((c : Thread nD τ).loc main_v0) = features 8000000 (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.ArrayValue

end
-- ==== Proof.Reference.lean ====
/-
  The reference's result array.

  The reference slices the three columns of its `8000000 × 3` argument, flattens each to a vector of
  length 8000000, forms the six products of two of them and a vector of ones, turns each of the ten vectors back
  into a column, and concatenates the ten columns. Read at row `r`: a flattened column `a` is
  `X[r, a]` (`flat0`, `flat1`, `flat2`: a slice at column offset `a`, then a reshape that keeps the row);
  each of the ten columns at row `r` is then the constant 1, one `X[r, a]`, or a product
  `X[r, a] · X[r, b]` (`column0` … `column9`); and the concatenation at `(r, k)` is its `k`-th column at
  row `r`, because the columns all have width one, so that column `k` starts after `k` entries.
  That is the feature matrix of the argument, entry by entry (`reference_eq_features`). Nothing here depends
  on the float instance.
-/
import proofs.«138233_j46866683134251_2_alg».proof.Proof.Gen.ReferenceIdeal.Read
import proofs.«138233_j46866683134251_2_alg».proof.Proof.Features

noncomputable section

namespace Cert.ReferenceIdeal.RefValue

open Cert.ReferenceIdeal Cert.ReferenceIdeal.Gen Cert.ReferenceIdeal.Read
open Idealize.ShloMosaic Idealize.ShloMosaic.ValueIdx Cert.PolyFeatures

variable {F : FTy → Type} [FloatOps F]

/-! ## The three columns of the argument, flattened -/

/-- Column 0 of the argument as a vector: its entry `r` is `X[r, 0]`. -/
theorem flat0 (x0 : (⟨S8000000x3, .f32⟩ : BufTy).Contents (Elt F)) (i : S8000000.Idx) :
    val_main_v1 (F := F) x0 i = x0 (ix2 (⟨(i 0).val, (i 0).isLt⟩ : Fin 8000000) (0 : Fin 3)) := by
  rw [val_main_v1_apply, val_main_v0_apply]
  refine congrArg x0 ?_
  funext a; apply Fin.ext
  match a with
  | ⟨0, _⟩ => show (i 0).val / 1 = (i 0).val; omega
  | ⟨1, _⟩ => rfl

/-- Column 1 of the argument as a vector: its entry `r` is `X[r, 1]`. -/
theorem flat1 (x0 : (⟨S8000000x3, .f32⟩ : BufTy).Contents (Elt F)) (i : S8000000.Idx) :
    val_main_v3 (F := F) x0 i = x0 (ix2 (⟨(i 0).val, (i 0).isLt⟩ : Fin 8000000) (1 : Fin 3)) := by
  rw [val_main_v3_apply, val_main_v2_apply]
  refine congrArg x0 ?_
  funext a; apply Fin.ext
  match a with
  | ⟨0, _⟩ => show (i 0).val / 1 = (i 0).val; omega
  | ⟨1, _⟩ => rfl

/-- Column 2 of the argument as a vector: its entry `r` is `X[r, 2]`. -/
theorem flat2 (x0 : (⟨S8000000x3, .f32⟩ : BufTy).Contents (Elt F)) (i : S8000000.Idx) :
    val_main_v5 (F := F) x0 i = x0 (ix2 (⟨(i 0).val, (i 0).isLt⟩ : Fin 8000000) (2 : Fin 3)) := by
  rw [val_main_v5_apply, val_main_v4_apply]
  refine congrArg x0 ?_
  funext a; apply Fin.ext
  match a with
  | ⟨0, _⟩ => show (i 0).val / 1 = (i 0).val; omega
  | ⟨1, _⟩ => rfl

/-! ## The ten columns at a row

Each is a vector broadcast back to a column, which keeps the row. -/

/-- Column 0 holds the constant whose word is that of 1.0. -/
theorem column0 (i : S8000000x1.Idx) : val_main_v13 (F := F) i = FloatOps.ofBits .f32 0x3F800000#32 :=
  (val_main_v13_apply i).trans ((val_main_v6_apply _).trans (val_main_cst_apply _))

/-- Columns 1, 2, 3 at row `r` are `X[r, 0]`, `X[r, 1]`, `X[r, 2]`. -/
theorem column1 (x0 : (⟨S8000000x3, .f32⟩ : BufTy).Contents (Elt F)) (i : S8000000x1.Idx) :
    val_main_v14 (F := F) x0 i = x0 (ix2 (rowOf i) (0 : Fin 3)) :=
  (val_main_v14_apply x0 i).trans (flat0 x0 _)
theorem column2 (x0 : (⟨S8000000x3, .f32⟩ : BufTy).Contents (Elt F)) (i : S8000000x1.Idx) :
    val_main_v15 (F := F) x0 i = x0 (ix2 (rowOf i) (1 : Fin 3)) :=
  (val_main_v15_apply x0 i).trans (flat1 x0 _)
theorem column3 (x0 : (⟨S8000000x3, .f32⟩ : BufTy).Contents (Elt F)) (i : S8000000x1.Idx) :
    val_main_v16 (F := F) x0 i = x0 (ix2 (rowOf i) (2 : Fin 3)) :=
  (val_main_v16_apply x0 i).trans (flat2 x0 _)

/-- Columns 4 to 9 at row `r` are the products `X[r, a] · X[r, b]` for `(a, b)` = (0,0), (0,1), (0,2), (1,1),
    (1,2), (2,2): the product of two flattened columns, entry by entry. -/
theorem column4 (x0 : (⟨S8000000x3, .f32⟩ : BufTy).Contents (Elt F)) (i : S8000000x1.Idx) :
    val_main_v17 (F := F) x0 i = FloatOps.mulf (x0 (ix2 (rowOf i) (0 : Fin 3))) (x0 (ix2 (rowOf i) (0 : Fin 3))) :=
  (val_main_v17_apply x0 i).trans ((val_main_v7_apply x0 _).trans (congrArg₂ FloatOps.mulf (flat0 x0 _) (flat0 x0 _)))
theorem column5 (x0 : (⟨S8000000x3, .f32⟩ : BufTy).Contents (Elt F)) (i : S8000000x1.Idx) :
    val_main_v18 (F := F) x0 i = FloatOps.mulf (x0 (ix2 (rowOf i) (0 : Fin 3))) (x0 (ix2 (rowOf i) (1 : Fin 3))) :=
  (val_main_v18_apply x0 i).trans ((val_main_v8_apply x0 _).trans (congrArg₂ FloatOps.mulf (flat0 x0 _) (flat1 x0 _)))
theorem column6 (x0 : (⟨S8000000x3, .f32⟩ : BufTy).Contents (Elt F)) (i : S8000000x1.Idx) :
    val_main_v19 (F := F) x0 i = FloatOps.mulf (x0 (ix2 (rowOf i) (0 : Fin 3))) (x0 (ix2 (rowOf i) (2 : Fin 3))) :=
  (val_main_v19_apply x0 i).trans ((val_main_v9_apply x0 _).trans (congrArg₂ FloatOps.mulf (flat0 x0 _) (flat2 x0 _)))
theorem column7 (x0 : (⟨S8000000x3, .f32⟩ : BufTy).Contents (Elt F)) (i : S8000000x1.Idx) :
    val_main_v20 (F := F) x0 i = FloatOps.mulf (x0 (ix2 (rowOf i) (1 : Fin 3))) (x0 (ix2 (rowOf i) (1 : Fin 3))) :=
  (val_main_v20_apply x0 i).trans ((val_main_v10_apply x0 _).trans (congrArg₂ FloatOps.mulf (flat1 x0 _) (flat1 x0 _)))
theorem column8 (x0 : (⟨S8000000x3, .f32⟩ : BufTy).Contents (Elt F)) (i : S8000000x1.Idx) :
    val_main_v21 (F := F) x0 i = FloatOps.mulf (x0 (ix2 (rowOf i) (1 : Fin 3))) (x0 (ix2 (rowOf i) (2 : Fin 3))) :=
  (val_main_v21_apply x0 i).trans ((val_main_v11_apply x0 _).trans (congrArg₂ FloatOps.mulf (flat1 x0 _) (flat2 x0 _)))
theorem column9 (x0 : (⟨S8000000x3, .f32⟩ : BufTy).Contents (Elt F)) (i : S8000000x1.Idx) :
    val_main_v22 (F := F) x0 i = FloatOps.mulf (x0 (ix2 (rowOf i) (2 : Fin 3))) (x0 (ix2 (rowOf i) (2 : Fin 3))) :=
  (val_main_v22_apply x0 i).trans ((val_main_v12_apply x0 _).trans (congrArg₂ FloatOps.mulf (flat2 x0 _) (flat2 x0 _)))

/-! ## The concatenation -/

/-- Entry `(r, 0)` of a column and entry `(r, k)` of the result are in the same row: they agree on every axis
    but the one the columns are joined along. -/
theorem same_row (r : Fin 8000000) (k : Fin 10) :
    ∀ b : Fin S8000000x1.rank, b.cast (rfl : S8000000x1.rank = S8000000x10.rank) ≠ (1 : Fin S8000000x10.rank) →
      ((ix2 r (0 : Fin 1) : S8000000x1.Idx) b).val = ((ix2 r k : S8000000x10.Idx) (b.cast rfl)).val := by
  intro b hb
  match b with
  | ⟨0, _⟩ => rfl
  | ⟨1, _⟩ => exact absurd rfl hb

/-- THE REFERENCE'S RESULT is the feature matrix of its argument. At `(r, k)` the concatenation reads its
    `k`-th column — the `k` columns before it take up `k` entries of the row — at row `r`, and that column
    there is the `k`-th monomial of row `r` of the argument. -/
theorem reference_eq_features (x0 : (⟨S8000000x3, .f32⟩ : BufTy).Contents (Elt F)) :
    val_main_v23 (F := F) x0 = features 8000000 x0 := by
  funext j
  obtain ⟨r, k, rfl⟩ : ∃ (r : Fin 8000000) (k : Fin 10), j = ix2 r k := ⟨j 0, j 1, eq_ix2 j⟩
  unfold val_main_v23
  match k with
  | ⟨0, hk⟩ =>
    refine (concatenate_apply_piece 1 _ _ (ix2 r ⟨0, hk⟩) 0 (by show (0 : Nat) < 10; decide) S8000000x1 _ rfl rfl 0 rfl
      (ix2 r (0 : Fin 1)) (same_row r ⟨0, hk⟩) rfl).trans ?_
    exact column0 _
  | ⟨1, hk⟩ =>
    refine (concatenate_apply_piece 1 _ _ (ix2 r ⟨1, hk⟩) 1 (by show (1 : Nat) < 10; decide) S8000000x1 _ rfl rfl 1 rfl
      (ix2 r (0 : Fin 1)) (same_row r ⟨1, hk⟩) rfl).trans ?_
    exact column1 x0 _
  | ⟨2, hk⟩ =>
    refine (concatenate_apply_piece 1 _ _ (ix2 r ⟨2, hk⟩) 2 (by show (2 : Nat) < 10; decide) S8000000x1 _ rfl rfl 2 rfl
      (ix2 r (0 : Fin 1)) (same_row r ⟨2, hk⟩) rfl).trans ?_
    exact column2 x0 _
  | ⟨3, hk⟩ =>
    refine (concatenate_apply_piece 1 _ _ (ix2 r ⟨3, hk⟩) 3 (by show (3 : Nat) < 10; decide) S8000000x1 _ rfl rfl 3 rfl
      (ix2 r (0 : Fin 1)) (same_row r ⟨3, hk⟩) rfl).trans ?_
    exact column3 x0 _
  | ⟨4, hk⟩ =>
    refine (concatenate_apply_piece 1 _ _ (ix2 r ⟨4, hk⟩) 4 (by show (4 : Nat) < 10; decide) S8000000x1 _ rfl rfl 4 rfl
      (ix2 r (0 : Fin 1)) (same_row r ⟨4, hk⟩) rfl).trans ?_
    exact column4 x0 _
  | ⟨5, hk⟩ =>
    refine (concatenate_apply_piece 1 _ _ (ix2 r ⟨5, hk⟩) 5 (by show (5 : Nat) < 10; decide) S8000000x1 _ rfl rfl 5 rfl
      (ix2 r (0 : Fin 1)) (same_row r ⟨5, hk⟩) rfl).trans ?_
    exact column5 x0 _
  | ⟨6, hk⟩ =>
    refine (concatenate_apply_piece 1 _ _ (ix2 r ⟨6, hk⟩) 6 (by show (6 : Nat) < 10; decide) S8000000x1 _ rfl rfl 6 rfl
      (ix2 r (0 : Fin 1)) (same_row r ⟨6, hk⟩) rfl).trans ?_
    exact column6 x0 _
  | ⟨7, hk⟩ =>
    refine (concatenate_apply_piece 1 _ _ (ix2 r ⟨7, hk⟩) 7 (by show (7 : Nat) < 10; decide) S8000000x1 _ rfl rfl 7 rfl
      (ix2 r (0 : Fin 1)) (same_row r ⟨7, hk⟩) rfl).trans ?_
    exact column7 x0 _
  | ⟨8, hk⟩ =>
    refine (concatenate_apply_piece 1 _ _ (ix2 r ⟨8, hk⟩) 8 (by show (8 : Nat) < 10; decide) S8000000x1 _ rfl rfl 8 rfl
      (ix2 r (0 : Fin 1)) (same_row r ⟨8, hk⟩) rfl).trans ?_
    exact column8 x0 _
  | ⟨9, hk⟩ =>
    refine (concatenate_apply_piece 1 _ _ (ix2 r ⟨9, hk⟩) 9 (by show (9 : Nat) < 10; decide) S8000000x1 _ rfl rfl 9 rfl
      (ix2 r (0 : Fin 1)) (same_row r ⟨9, hk⟩) rfl).trans ?_
    exact column9 x0 _
  | ⟨n + 10, h⟩ => exact absurd h (by omega)

end Cert.ReferenceIdeal.RefValue

end
-- ==== Proof.lean ====
/-
  The degree-two polynomial features of an `8000000 × 3` matrix, computed two ways.

  Both programs send the matrix `X` to the `8000000 × 10` matrix whose row `r` is

      1, a, b, c, a·a, a·b, a·c, b·b, b·c, c·c        with  a = X[r, 0], b = X[r, 1], c = X[r, 2]

  (Proof/Features.lean). The kernel walks the rows in 500 blocks of 16000; in each block it stores the ten columns
  one by one (Proof/Block.lean), and the blocks tile the result (Proof/Array.lean). The reference slices the three
  columns, multiplies them as whole vectors and concatenates ten columns (Proof/Reference.lean). The two results are
  the SAME term of the float operations — the same constant word for 1 and, in every product, the same two factors
  in the same order — so they are equal at any float instance, in particular over the extended reals, with no
  law of arithmetic used and no use of the inputs' finiteness.

  The three frames are the generated ones (the reference's is its run with the result dropped); the idealization
  rewrote nothing in the kernel, so there is nothing to preserve.
-/
import proofs.«138233_j46866683134251_2_alg».proof.Defs
import proofs.«138233_j46866683134251_2_alg».proof.Proof.Gen.Kernel.Frame
import proofs.«138233_j46866683134251_2_alg».proof.Proof.Gen.Pre_finite_inputs
import proofs.«138233_j46866683134251_2_alg».proof.Proof.Array
import proofs.«138233_j46866683134251_2_alg».proof.Proof.Reference

noncomputable section

namespace Cert.Proof

open Idealize.ShloMosaic Idealize.SL.Sem

/-- The word-level kernel runs to the end and leaves its argument alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten. -/
theorem preserves : Cert.preserves_Kernel_KernelIdeal := trivial

/-- From memories that agree on the argument, the kernel's result array and the reference's both end as the
    feature matrix of that argument. -/
theorem algebraic : Cert.algebraic_KernelIdeal_ReferenceIdeal := by
  intro m ρ m' ρ' _ hagree
  refine ⟨_, Cert.KernelIdeal.ArrayValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.reference_eq_features, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
